-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x32 : Shape := ⟨2, ![4096, 32]⟩
abbrev S65536x32 : Shape := ⟨2, ![65536, 32]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S65536x32 : S_.BroadcastsInDim S65536x32 (![] : Fin 0 → Fin S65536x32.rank)
  reducesTo_S65536x32_S_d0_1 : S65536x32.ReducesTo [0, 1] S_

variable [Facts]

def fn {F : FTy → Type} [FloatOps F] (main_arg0 : FVec F S4096 .f32) (main_arg1 : FVec F S4096x32 .f32) (main_arg2 : FVec F S65536x32 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S65536x32 .f32 := Host.absf main_arg2
  let main_cst_2 : FVec F S_ .f32 := constant S_ .f32 0x7F800000#32
  let main_v10 : FVec F S65536x32 .f32 := broadcastInDim S65536x32 ![] bcast_S_S65536x32 main_cst_2
  let main_v11 : IVec S65536x32 1 := cmpf .olt main_v9 main_v10
  let main_c_3 : IVec S_ 1 := constantI S_ 1 1#1
  let main_v12 : IVec S_ 1 := (fun x v => Host.reduce IntOp.andi x v reducesTo_S65536x32_S_d0_1 h_S_) main_v11 main_c_3
  let main_v13 : IVec S_ 1 := andi main_v8 main_v12
  main_v13
-- ==== Kernel.lean ====
abbrev S4096 : Shape := ⟨1, ![4096]⟩
abbrev S4096x32 : Shape := ⟨2, ![4096, 32]⟩
abbrev S65536x32 : Shape := ⟨2, ![65536, 32]⟩
abbrev S4096x1 : Shape := ⟨2, ![4096, 1]⟩
abbrev S512x32 : Shape := ⟨2, ![512, 32]⟩
abbrev S512x1 : Shape := ⟨2, ![512, 1]⟩
abbrev S512 : Shape := ⟨1, ![512]⟩
abbrev S1x4096 : Shape := ⟨2, ![1, 4096]⟩
abbrev S32x4096 : Shape := ⟨2, ![32, 4096]⟩
abbrev S512x4096 : Shape := ⟨2, ![512, 4096]⟩
abbrev S_ : Shape := ⟨0, ![]⟩

abbrev nBuf : Space → Nat
  | .hbm => 23
  | .vmem => 7
  | .smem => 0
  | _ => 0

abbrev bufTy : (tb : Table) → Fin (tcTables nBuf tb) → BufTy
  | .hbm, ⟨0, _⟩ => ⟨S4096, .f32⟩
  | .hbm, ⟨1, _⟩ => ⟨S4096x32, .f32⟩
  | .hbm, ⟨2, _⟩ => ⟨S65536x32, .f32⟩
  | .hbm, ⟨3, _⟩ => ⟨S4096x1, .f32⟩
  | .hbm, ⟨4, _⟩ => ⟨S4096x1, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S4096, .f32⟩
  | .local _ .vmem, ⟨0, _⟩ => ⟨S512x32, .f32⟩
  | .local _ .vmem, ⟨1, _⟩ => ⟨S512x32, .f32⟩
  | .local _ .vmem, ⟨2, _⟩ => ⟨S65536x32, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c4096_i32 : BitVec 32 := 4096#32
  let v19 : BitVec 32 := Scalar.muli arg5 c4096_i32
  v19
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c4096_i32 : BitVec 32 := 4096#32
  let v19 : BitVec 32 := Scalar.muli arg5 c4096_i32
  let v20 : BitVec 32 := v19
  let v21 : Index := Scalar.indexCast v20
  let c0_11 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65536x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x32_S512x32_0_0 : ∀ a, (![0, 0] : Fin 2 → Nat) a + S512x32.size a ≤ S512x32.size a
  h_S512x32 : 0 < S512x32.numel
  reduces_S512x32_S512 : S512x32.Reduces [1] S512
  shapeCasts_S512_S512x1 : S512.ShapeCasts S512x1
  h_S4096x32 : 0 < S4096x32.numel
  reduces_S4096x32_S4096 : S4096x32.Reduces [1] S4096
  shapeCasts_S4096_S1x4096 : S4096.ShapeCasts S1x4096
  transposes_S4096x32_p1_0_S32x4096 : S4096x32.Transposes [1, 0] S32x4096
  broadcasts_S1x4096_S512x4096 : S1x4096.Broadcasts S512x4096
  reduces_S512x4096_S512 : S512x4096.Reduces [1] S512
  inb_S512x1_S512x1_0_0 : ∀ a, (![0, 0] : Fin 2 → Nat) a + S512x1.size a ≤ S512x1.size a
  h_S512x1 : 0 < S512x1.numel
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S512x32_S32x4096_S512x4096_1_0_0_1_n_n_wf : DotDims.WF S512x32 S32x4096 S512x4096 [1] [0] [0] [1] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S4096x32.size a ≤ S65536x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S4096x32.size a
  hwx0_0 : ∀ i : grid0.Coords, EltTy.bits .f32 = 32 ∨ (Rect.block (s := S4096x32) S512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65536x32.size a ≤ S65536x32.size a
  hwx0_1 : ∀ i : grid0.Coords, EltTy.bits .f32 = 32 ∨ (Rect.block (s := S65536x32) S65536x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf

abbrev win0_0 : Pipeline.Window sig grid0 :=
  Pipeline.Window.ofSpec (Memref.whole main_arg1) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S65536x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096 : Shape := ⟨1, ![4096]⟩
abbrev S4096x32 : Shape := ⟨2, ![4096, 32]⟩
abbrev S65536x32 : Shape := ⟨2, ![65536, 32]⟩
abbrev S_ : Shape := ⟨0, ![]⟩
abbrev S4096x1 : Shape := ⟨2, ![4096, 1]⟩
abbrev S65536 : Shape := ⟨1, ![65536]⟩
abbrev S1x65536 : Shape := ⟨2, ![1, 65536]⟩
abbrev S4096x65536 : Shape := ⟨2, ![4096, 65536]⟩
abbrev S32x65536 : Shape := ⟨2, ![32, 65536]⟩

abbrev nBuf : Space → Nat
  | .hbm => 51
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x32, .f32⟩
  | .hbm, ⟨2, _⟩ => ⟨S65536x32, .f32⟩
  | .hbm, ⟨3, _⟩ => ⟨S4096x32, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x32, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S65536x32, .f32⟩
  | .hbm, ⟨17, _⟩ => ⟨S_, .f32⟩
  | .hbm, ⟨18, _⟩ => ⟨S65536, .f32⟩
  | .hbm, ⟨19, _⟩ => ⟨S1x65536, .f32⟩
  | .hbm, ⟨20, _⟩ => ⟨S4096x65536, .f32⟩
  | .hbm, ⟨21, _⟩ => ⟨S4096x65536, .f32⟩
  | .hbm, ⟨22, _⟩ => ⟨S4096x65536, .f32⟩
  | .hbm, ⟨23, _⟩ => ⟨S32x65536, .f32⟩
  | .hbm, ⟨24, _⟩ => ⟨S4096x65536, .f32⟩
  | .hbm, ⟨25, _⟩ => ⟨S_, .f32⟩
  | .hbm, ⟨26, _⟩ => ⟨S4096x65536, .f32⟩
  | .hbm, ⟨27, _⟩ => ⟨S4096x65536, .f32⟩
  | .hbm, ⟨28, _⟩ => ⟨S4096x65536, .f32⟩
  | .hbm, ⟨29, _⟩ => ⟨S_, .f32⟩
  | .hbm, ⟨30, _⟩ => ⟨S4096x65536, .f32⟩
  | .hbm, ⟨31, _⟩ => ⟨S4096x65536, .f32⟩
  | .hbm, ⟨32, _⟩ => ⟨S4096x65536, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  reducesTo_S4096x32_S4096_d1 : S4096x32.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  reducesTo_S65536x32_S65536_d1 : S65536x32.ReducesTo [1] S65536
  bcast_S65536_S1x65536_1 : S65536.BroadcastsInDim S1x65536 (![1] : Fin 1 → Fin S1x65536.rank)
  bcast_S4096x1_S4096x65536_0_1 : S4096x1.BroadcastsInDim S4096x65536 (![0, 1] : Fin 2 → Fin S4096x65536.rank)
  bcast_S1x65536_S4096x65536_0_1 : S1x65536.BroadcastsInDim S4096x65536 (![0, 1] : Fin 2 → Fin S4096x65536.rank)
  transposes_S65536x32_S32x65536_1_0 : S65536x32.Transposes [1, 0] S32x65536
  bcast_S_S4096x65536 : S_.BroadcastsInDim S4096x65536 (![] : Fin 0 → Fin S4096x65536.rank)
  reducesTo_S4096x65536_S4096_d1 : S4096x65536.ReducesTo [1] S4096
  reducesTo_S4096_S_d0 : S4096.ReducesTo [0] S_
  dot_S4096x32_S32x65536_S4096x65536_1_0_0_1_n_n_wf : DotDims.WF S4096x32 S32x65536 S4096x65536 [1] [0] [0] [1] [] []

variable [Facts₀]

def dot_S4096x32_S32x65536_S4096x65536_1_0_0_1_n_n : DotDims S4096x32 S32x65536 S4096x65536 where
  lhsContracting := [1]
  rhsContracting := [0]
  lhsNonContracting := [0]
  rhsNonContracting := [1]
  lhsBatch := []
  rhsBatch := []
  wf := dot_S4096x32_S32x65536_S4096x65536_1_0_0_1_n_n_wf

class Facts : Prop extends Facts₀ where

variable [Facts]
-- ==== Proof.KernelArray.lean ====
/-
  From blocks to arrays: the two output columns after the run.

  Each of the kernel's two outputs is a column of 4096 numbers written back in eight blocks of 512, block t holding
  rows 512·t … 512·t + 511. So whenever the block that grid point t leaves agrees, row by row, with one column G of
  4096 numbers at rows 512·t + a, the array after the run is G: every row lies in exactly the block of the point
  row / 512, and every point writes its block back. The same reading of the inputs: the query block at point t is rows
  512·t … of the query table, and the reference table is staged whole at every point.
-/
import proofs.«181582_j53833120088165_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- The printed index maps over the grid: the query block and both output blocks sit at block row t, the reference
    table's one block at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 8 := by have := t.isLt; have h : cfg0.N = 8 := N_0; omega

/-- A block of 512 rows that agrees with the column `G` at rows 512·tv + a agrees with it at every index of the block
    read at the array index the block's rectangle names. -/
theorem col_block (X : Vec F S512x1 .f32) (G : Vec F S4096x1 .f32) (tv : ℕ) (htv : tv < 8)
    (hblk : ∀ a : Fin 512, X (ix2 a (0 : Fin 1)) = G (ix2 (⟨512 * tv + a.val, by have := a.isLt; omega⟩ : Fin 4096) (0 : Fin 1)))
    (y : S512x1.Idx) (i : S4096x1.Idx) (hi0 : (i 0).val = tv * 512 + 1 * (y 0).val) (hi1 : (i 1).val = 0 * 1 + 1 * (y 1).val) :
    X y = G i := by
  obtain ⟨a, u, rfl⟩ : ∃ (a : Fin 512) (u : Fin 1), y = ix2 a u := ⟨y 0, y 1, eq_ix2 y⟩
  obtain rfl : u = 0 := Subsingleton.elim _ _
  rw [hblk a]
  refine congrArg G (funext fun d => Fin.ext ?_)
  match d with
  | ⟨0, _⟩ => show 512 * tv + a.val = (i 0).val; rw [hi0]; show _ = tv * 512 + 1 * a.val; omega
  | ⟨1, _⟩ => show (0 : ℕ) = (i 1).val; rw [hi1]; show _ = 0 * 1 + 1 * (0 : ℕ); omega

/-- What point `t` writes back of the first output column is block `t` of `G`. -/
theorem flushed_col2 (c : Dev nD) (t : Fin cfg0.N) (G : Vec F S4096x1 .f32)
    (hblk : ∀ a : Fin 512, (outsAt0 m c t).1 (ix2 a (0 : Fin 1)) = G (ix2 (⟨512 * t.val + a.val, by have := a.isLt; have := t_lt t; omega⟩ : Fin 4096) (0 : Fin 1))) :
    (dats m 0 c).flushed 2 t = ((cfg0.win 2).blk t).view.read (Elt F) G := by
  show (cfg0.win 2).cut (grid0.coords t) ((dats m 0 c).after 2 t) = _
  rw [after0_2]
  obtain ⟨-, -, -, -, e0, e1, -, -⟩ := idx_facts t
  funext j
  refine col_block (outsAt0 m c t).1 G t.val (t_lt t) hblk j _ ?_ ?_
  · show win0_2.index t (0 : Fin 2) * 512 + 1 * (j 0).val = _; rw [e0]
  · show win0_2.index t (1 : Fin 2) * 1 + 1 * (j 1).val = _; rw [e1]

/-- The same for the second output column. -/
theorem flushed_col3 (c : Dev nD) (t : Fin cfg0.N) (G : Vec F S4096x1 .f32)
    (hblk : ∀ a : Fin 512, (outsAt0 m c t).2 (ix2 a (0 : Fin 1)) = G (ix2 (⟨512 * t.val + a.val, by have := a.isLt; have := t_lt t; omega⟩ : Fin 4096) (0 : Fin 1))) :
    (dats m 0 c).flushed 3 t = ((cfg0.win 3).blk t).view.read (Elt F) G := by
  show (cfg0.win 3).cut (grid0.coords t) ((dats m 0 c).after 3 t) = _
  rw [after0_3]
  obtain ⟨-, -, -, -, -, -, e0, e1⟩ := idx_facts t
  funext j
  refine col_block (outsAt0 m c t).2 G t.val (t_lt t) hblk j _ ?_ ?_
  · show win0_3.index t (0 : Fin 2) * 512 + 1 * (j 0).val = _; rw [e0]
  · show win0_3.index t (1 : Fin 2) * 1 + 1 * (j 1).val = _; rw [e1]

/-- An index of a column is in point `t`'s block iff each coordinate is in the block's range on its axis. -/
theorem mem_blk2 (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_0).slice (win0_2.rect t)).set ↔ _
  rw [View.set_slice_whole, Rect.mem_set_unit]
  exact Iff.rfl

theorem mem_blk3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v0_1).slice (win0_3.rect t)).set ↔ _
  rw [View.set_slice_whole, Rect.mem_set_unit]
  exact Iff.rfl

/-- The point whose block holds row r: r / 512. -/
def pointOf (i : S4096x1.Idx) : Fin cfg0.N := ⟨(i 0).val / 512, by
  have h : cfg0.N = 8 := N_0
  have : (i 0).val < 4096 := (i 0).isLt
  omega⟩

/-- The first output column after the run is `G`, when every point's block agrees with `G` on its rows. -/
theorem final_col2 (c : Dev nD) (G : Vec F S4096x1 .f32)
    (hblk : ∀ (t : Fin cfg0.N) (a : Fin 512), (outsAt0 m c t).1 (ix2 a (0 : Fin 1)) = G (ix2 (⟨512 * t.val + a.val, by have := a.isLt; have := t_lt t; omega⟩ : Fin 4096) (0 : Fin 1))) :
    (dats m 0 c).arrAt 2 cfg0.N = G :=
  (dats m 0 c).arrAt_eq_of_cover 2 G (fun t _ => flushed_col2 m c t G (hblk t)) fun i => by
    refine ⟨pointOf i, flush0_2 _, ?_⟩
    rw [mem_blk2]
    obtain ⟨-, -, -, -, e0, e1, -, -⟩ := idx_facts (pointOf i)
    have h0 : (i 0).val < 4096 := (i 0).isLt
    have h1 : (i 1).val < 1 := (i 1).isLt
    intro a
    match a with
    | ⟨0, _⟩ => show win0_2.index (pointOf i) (0 : Fin 2) * 512 ≤ (i 0).val ∧ (i 0).val < win0_2.index (pointOf i) (0 : Fin 2) * 512 + 512
                rw [e0]; show (i 0).val / 512 * 512 ≤ _ ∧ _ < (i 0).val / 512 * 512 + 512; omega
    | ⟨1, _⟩ => show win0_2.index (pointOf i) (1 : Fin 2) * 1 ≤ (i 1).val ∧ (i 1).val < win0_2.index (pointOf i) (1 : Fin 2) * 1 + 1
                rw [e1]; omega

/-- The second output column after the run is `G`, when every point's block agrees with `G` on its rows. -/
theorem final_col3 (c : Dev nD) (G : Vec F S4096x1 .f32)
    (hblk : ∀ (t : Fin cfg0.N) (a : Fin 512), (outsAt0 m c t).2 (ix2 a (0 : Fin 1)) = G (ix2 (⟨512 * t.val + a.val, by have := a.isLt; have := t_lt t; omega⟩ : Fin 4096) (0 : Fin 1))) :
    (dats m 0 c).arrAt 3 cfg0.N = G :=
  (dats m 0 c).arrAt_eq_of_cover 3 G (fun t _ => flushed_col3 m c t G (hblk t)) fun i => by
    refine ⟨pointOf i, flush0_3 _, ?_⟩
    rw [mem_blk3]
    obtain ⟨-, -, -, -, -, -, e0, e1⟩ := idx_facts (pointOf i)
    have h0 : (i 0).val < 4096 := (i 0).isLt
    have h1 : (i 1).val < 1 := (i 1).isLt
    intro a
    match a with
    | ⟨0, _⟩ => show win0_3.index (pointOf i) (0 : Fin 2) * 512 ≤ (i 0).val ∧ (i 0).val < win0_3.index (pointOf i) (0 : Fin 2) * 512 + 512
                rw [e0]; show (i 0).val / 512 * 512 ≤ _ ∧ _ < (i 0).val / 512 * 512 + 512; omega
    | ⟨1, _⟩ => show win0_3.index (pointOf i) (1 : Fin 2) * 1 ≤ (i 1).val ∧ (i 1).val < win0_3.index (pointOf i) (1 : Fin 2) * 1 + 1
                rw [e1]; omega

/-- The query block at point `t`, read at row a and column k, is the query table at row 512·t + a. -/
theorem iblk0_apply (c : Dev nD) (t : Fin cfg0.N) (a : Fin 512) (k : Fin 32) :
    (iblk m c 0 t : Vec F S512x32 .f32) (ix2 a k) = V m c main_arg1 (ix2 (⟨512 * t.val + a.val, by have := a.isLt; have := t_lt t; omega⟩ : Fin 4096) k) := by
  obtain ⟨e0, e1, -, -, -, -, -, -⟩ := idx_facts t
  unfold iblk
  rw [View.read_apply]
  show V m c main_arg1 _ = V m c main_arg1 _
  refine congrArg (V m c main_arg1) (funext fun d => Fin.ext ?_)
  match d with
  | ⟨0, _⟩ => show win0_0.index t (0 : Fin 2) * 512 + 1 * a.val = 512 * t.val + a.val; rw [e0]; omega
  | ⟨1, _⟩ => show win0_0.index t (1 : Fin 2) * 32 + 1 * k.val = k.val; rw [e1]; omega

/-- The reference table's block at every point is the whole table. -/
theorem iblk1_eq (c : Dev nD) (t : Fin cfg0.N) :
    (iblk m c 1 t : Vec F S65536x32 .f32) = V m c main_arg2 := by
  obtain ⟨-, -, e0, e1, -, -, -, -⟩ := idx_facts t
  funext j
  unfold iblk
  rw [View.read_apply]
  show V m c main_arg2 _ = V m c main_arg2 _
  refine congrArg (V m c main_arg2) (funext fun d => Fin.ext ?_)
  match d with
  | ⟨0, _⟩ => show win0_1.index t (0 : Fin 2) * 65536 + 1 * (j 0).val = (j 0).val; rw [e0]; omega
  | ⟨1, _⟩ => show win0_1.index t (1 : Fin 2) * 32 + 1 * (j 1).val = (j 1).val; rw [e1]; omega

end Cert.KernelIdeal.Blocks

end
-- ==== Proof.Pieces.lean ====
/-
  What the kernel body leaves in its two output blocks, as functions of its two input blocks.

  The body loads its block x0 of 512 query rows, and in sixteen trips of a counted loop loads the reference table x1
  4096 rows at a time, carrying the running minimum of (row square of the reference row + cross term) per query row.
  After the loop it stores √(max(row square + running minimum, 0)) in one output block and (-1/2)·row square − c in the
  other. Each stored block is ONE store through the whole staging buffer, so the block holds that store's payload; the
  carried value before trip n is a plain recursion over the trips, each trip applying the loop body's payload to the
  4096 rows it loads.
-/
import proofs.«181582_j53833120088165_2_alg».proof.Proof.Gen.KernelIdeal.Frame
import Idealize.ShloMosaic.Lib.Pipeline.Value

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zeros2 : (![0, 0] : Fin 2 → Nat) = fun _ => 0 := funext fun a => by fin_cases a <;> rfl

/-- The 4096 rows of the reference table that trip `k` reads: rows 4096·k … 4096·k + 4095. -/
def chunk (L : Vec F S65536x32 .f32) (k : Fin k0_t1_loop.trips) : Vec F S4096x32 .f32 :=
  View.ld L (Rect.unit (k0_off1 k) S4096x32.size (k0_off1_inb k))

/-- The running minimum before trip `n`: +∞ before the first, and after a trip the minimum of the carried value with
    that trip's 4096 candidates. -/
def runMin (x0 : Vec F S512x32 .f32) (L : Vec F S65536x32 .f32) : ℕ → FVec F S512x1 .f32
  | 0 => k0_pay2
  | n + 1 => if h : n < k0_t1_loop.trips then k0_pay3 x0 (runMin x0 L n) (chunk L ⟨n, h⟩) else runMin x0 L n

/-- One trip of the loop yields the loop body's payload of the carried value and of the rows it loads. -/
theorem trip_value (𝒱 : Variants) (c : Dev nD) (bd : Option 𝒱.V) (i : grid0.Coords) (arg1 : Memref sig .tc .vmem S512x32 .f32) (harg1 : arg1.IsWhole) (arg2 : Memref sig .tc .vmem S65536x32 .f32) (harg2 : arg2.IsWhole) (arg3 : Memref sig .tc .vmem S512x1 .f32) (harg3 : arg3.IsWhole) (arg4 : Memref sig .tc .vmem S512x1 .f32) (harg4 : arg4.IsWhole) (v0 : Vec F S512x32 .f32) (L : Vec F S65536x32 .f32) (k : Fin k0_t1_loop.trips) (acc : FVec F S512x1 .f32) :
    tripR_k0_t1 (F := F) 𝒱 c bd i arg1 harg1 arg2 harg2 arg3 harg3 arg4 harg4 v0 (harg2.unread L) k acc = k0_pay3 v0 acc (chunk L k) := by
  unfold tripR_k0_t1 trip_k0_t1
  dsimp only
  rw [View.readAt_eq_ld, harg2.read_unread]
  rfl

/-- The value the loop carries before trip `n` is the running minimum. -/
theorem carried_eq (𝒱 : Variants) (c : Dev nD) (bd : Option 𝒱.V) (i : grid0.Coords) (arg1 : Memref sig .tc .vmem S512x32 .f32) (harg1 : arg1.IsWhole) (arg2 : Memref sig .tc .vmem S65536x32 .f32) (harg2 : arg2.IsWhole) (arg3 : Memref sig .tc .vmem S512x1 .f32) (harg3 : arg3.IsWhole) (arg4 : Memref sig .tc .vmem S512x1 .f32) (harg4 : arg4.IsWhole) (v0 : Vec F S512x32 .f32) (L : Vec F S65536x32 .f32) :
    ∀ n : ℕ, st_k0_t1 (F := F) 𝒱 c bd i arg1 harg1 arg2 harg2 arg3 harg3 arg4 harg4 v0 (harg2.unread L) k0_pay2 n = runMin v0 L n
  | 0 => rfl
  | n + 1 => by
    rw [st_k0_t1.eq_2, runMin]
    unfold st_k0_t1Step
    by_cases h : n < k0_t1_loop.trips
    · rw [dif_pos h, dif_pos h, trip_value, carried_eq 𝒱 c bd i arg1 harg1 arg2 harg2 arg3 harg3 arg4 harg4 v0 L n]
    · rw [dif_neg h, dif_neg h, carried_eq 𝒱 c bd i arg1 harg1 arg2 harg2 arg3 harg3 arg4 harg4 v0 L n]

/-- The log-density block: the one store's payload of the query block. -/
theorem out_dens (c : Dev nD) (i : grid0.Coords) (arg1 : Memref sig .tc .vmem S512x32 .f32) (harg1 : arg1.IsWhole) (arg2 : Memref sig .tc .vmem S65536x32 .f32) (harg2 : arg2.IsWhole) (arg3 : Memref sig .tc .vmem S512x1 .f32) (harg3 : arg3.IsWhole) (arg4 : Memref sig .tc .vmem S512x1 .f32) (harg4 : arg4.IsWhole)
    (x0 : Vec F S512x32 .f32) (x1 : Vec F S65536x32 .f32) :
    out0_A_2 c i arg1 harg1 arg2 harg2 arg3 harg3 arg4 harg4 x0 x1 = k0_pay5 x0 := by
  unfold out0_A_2
  rw [View.read_writes_eq_canon _ _ _ (cover0_A_2 c i arg1 harg1 arg2 harg2 arg3 harg3 arg4 harg4 x0 x1)]
  unfold kernelRun0_A
  dsimp only
  rw [View.canon_unit_zero zeros2]
  simp only [View.readAt_eq_ld, harg1.read_unread, View.ld_unit_zero (S := S512x32) zeros2]

/-- The distance block: the one store's payload of the query block and of the loop's last carried value. -/
theorem out_div (c : Dev nD) (i : grid0.Coords) (arg1 : Memref sig .tc .vmem S512x32 .f32) (harg1 : arg1.IsWhole) (arg2 : Memref sig .tc .vmem S65536x32 .f32) (harg2 : arg2.IsWhole) (arg3 : Memref sig .tc .vmem S512x1 .f32) (harg3 : arg3.IsWhole) (arg4 : Memref sig .tc .vmem S512x1 .f32) (harg4 : arg4.IsWhole)
    (x0 : Vec F S512x32 .f32) (x1 : Vec F S65536x32 .f32) :
    out0_A_3 c i arg1 harg1 arg2 harg2 arg3 harg3 arg4 harg4 x0 x1 = k0_pay4 x0 (runMin x0 x1 k0_t1_loop.trips) := by
  unfold out0_A_3
  rw [View.read_writes_eq_canon _ _ _ (cover0_A_3 c i arg1 harg1 arg2 harg2 arg3 harg3 arg4 harg4 x0 x1)]
  unfold kernelRun0_A
  dsimp only
  rw [View.canon_unit_zero zeros2]
  simp only [View.readAt_eq_ld, harg1.read_unread, View.ld_unit_zero (S := S512x32) zeros2]
  rw [carried_eq]

end Cert.KernelIdeal.Blocks

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibMinFold.lean ====
/-
  Minimum reductions read at the exact instance, as infima over the reduced axis.

  At the exact instance a float is an extended real and `minimumf` is `min`, so a kernel's
  `vector.multi_reduction <minimumf>` from `+∞` and a host's `stablehlo.reduce` by `minimum` from `+∞`, each over ONE
  axis, are at a result index `j` the infimum, over the coordinates `k` of that axis, of the operand at `j` with `k`
  inserted. Beside the two readings: a monotone map that fixes `⊤` commutes with a finite infimum, an infimum is
  monotone in its family through a choice of indices, and an infimum over `Fin (a * b)` is the infimum over the `a` blocks
  of the infima over each block's `b` members.
-/
import Idealize.ShloMosaic.PureOps.Ideal
import Idealize.ShloMosaic.PureOps.Ideal.Laws
import Idealize.ShloMosaic.PureOps.Reduce

noncomputable section

open Idealize.ShloMosaic

namespace Cert.MinFold

/-- The word `0x7F800000` denotes `+∞`, the top of the extended reals. -/
theorem ofBits_posInf : Ideal.ofBits .f32 0x7F800000#32 = (⊤ : EReal) := by
  simp [Ideal.ofBits, Ideal.ieee]

/-- A fold of `min` from `⊤` over a finite set is the set's infimum. -/
theorem fold_min_top {ι : Type} (s : Finset ι) (f : ι → EReal) : s.fold min ⊤ f = s.inf f := rfl

/-- A kernel's minimum over one axis, from `+∞`: at `j`, the infimum over that axis's coordinates. -/
theorem multiReduction_min_single {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).inf (fun k => src (h.lift j k)) := by
  rw [multiReduction_minimumf_eq_fold, h.fold_filter_drop_single]
  show (Finset.univ : Finset (Fin (s.size a))).fold min (Ideal.ofBits .f32 0x7F800000#32) (src ∘ h.lift j) = _
  rw [ofBits_posInf]
  rfl

/-- A host's minimum over one axis, from a rank-zero `+∞`: at `j`, the infimum over that axis's coordinates. -/
theorem hostReduce_min_single {s t u : Shape} {a : Fin s.rank} (x : FVec Ideal s .f32)
    (h' : s.ReducesTo [a] t) (h : s.Reduces [a] t) (hu : 0 < u.numel) (j : t.Idx) :
    Host.reduce (FloatOps.minimumf (F := Ideal) (φ := .f32)) x (constant (F := Ideal) u .f32 0x7F800000#32) h' hu j
      = (Finset.univ : Finset (Fin (s.size a))).inf (fun k => x (h.lift j k)) := by
  rw [Host.reduce_eq_fold_single _ x _ h' h hu j]
  show (Finset.univ : Finset (Fin (s.size a))).fold min (Ideal.ofBits .f32 0x7F800000#32) (x ∘ h.lift j) = _
  rw [ofBits_posInf]
  rfl

/-- A monotone map of the extended reals that fixes `⊤` commutes with a finite infimum. -/
theorem map_inf {ι : Type} (g : EReal → EReal) (hg : Monotone g) (htop : g ⊤ = ⊤) (s : Finset ι) (f : ι → EReal) :
    g (s.inf f) = s.inf (fun i => g (f i)) :=
  Finset.comp_inf_eq_inf_comp_of_is_total g hg htop

/-- An infimum is below another when every member of the second family has a member of the first below it. -/
theorem inf_le_inf_of_forall_exists {ι κ : Type} (s : Finset ι) (t : Finset κ) (f : ι → EReal) (g : κ → EReal)
    (h : ∀ b ∈ t, ∃ a ∈ s, f a ≤ g b) : s.inf f ≤ t.inf g :=
  Finset.le_inf fun b hb => by
    obtain ⟨a, ha, hab⟩ := h b hb
    exact (Finset.inf_le ha).trans hab

/-- The infimum over `Fin (a * b)` by blocks: over the `a` blocks, of the infimum over each block's `b` members. -/
theorem inf_blocks (a b : Nat) (F : Fin (a * b) → EReal) :
    (Finset.univ : Finset (Fin a)).inf (fun t => (Finset.univ : Finset (Fin b)).inf fun r =>
        F ⟨b * t.val + r.val, by
          have ht := t.isLt; have hr := r.isLt
          calc b * t.val + r.val < b * t.val + b := by omega
            _ = b * (t.val + 1) := by ring
            _ ≤ b * a := Nat.mul_le_mul_left b ht
            _ = a * b := Nat.mul_comm b a⟩)
      = Finset.univ.inf F := by
  apply le_antisymm
  · refine Finset.le_inf fun n _ => ?_
    have hb : 0 < b := Nat.pos_of_ne_zero (by rintro rfl; exact absurd n.isLt (by simp))
    have hq : n.val / b < a := by
      rw [Nat.div_lt_iff_lt_mul hb]; exact n.isLt
    have hr : n.val % b < b := Nat.mod_lt _ hb
    refine (Finset.inf_le (Finset.mem_univ (⟨n.val / b, hq⟩ : Fin a))).trans ?_
    refine (Finset.inf_le (Finset.mem_univ (⟨n.val % b, hr⟩ : Fin b))).trans ?_
    exact le_of_eq (congrArg F (Fin.ext (Nat.div_add_mod n.val b)))
  · refine Finset.le_inf fun t _ => Finset.le_inf fun r _ => ?_
    exact Finset.inf_le (Finset.mem_univ _)

end Cert.MinFold

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibPlainFields.lean ====
/-
  A kernel's matrix product whose dimension record is ANY record with the plain lists — contract the left
  operand's last axis with the right operand's first, no batch axis — accumulated into the zero block: its entry
  (a, b) is the sum over c of A(a, c) · B(c, b) on the extended reals.  A program's printed record carries its own
  proof of well-formedness; only the six lists matter, and they are compared here, not the records.
  Generic in the three extents, the operand formats and the precision key.
-/
import proofs.«181582_j53833120088165_2_alg».proof.Proof.LibPlainMatmul

noncomputable section

namespace Cert.LibPlainFields

open Idealize.ShloMosaic Idealize.ShloMosaic.ValueIdx

theorem matmul_plainFields_zero_apply {m k n : Nat} {φ₁ φ₂ : FTy} (D : DotDims ⟨2, ![m, k]⟩ ⟨2, ![k, n]⟩ ⟨2, ![m, n]⟩)
    (h1 : D.lhsContracting = [1]) (h2 : D.rhsContracting = [0]) (h3 : D.lhsNonContracting = [0]) (h4 : D.rhsNonContracting = [1])
    (h5 : D.lhsBatch = []) (h6 : D.rhsBatch = []) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  obtain ⟨lc, rc, ln, rn, lb, rb, wf⟩ := D
  dsimp only at h1 h2 h3 h4 h5 h6
  subst h1 h2 h3 h4 h5 h6
  exact Cert.LibPlainMatmul.matmul_plain_zero_apply prec A B a b

end Cert.LibPlainFields

end
-- ==== Proof.Payloads.lean ====
/-
  The kernel body's arithmetic read at an index, at the exact values.

  Each value the kernel's body computes from the block of query rows v0, the running minimum and a block of 4096
  reference rows is an array over (row, 0); read at row a it is a closed expression in the entries of its operands:
  the row's squared length, the +∞ the minimum starts from, the minimum of the running value and of
  (squared length of reference row j) + Σ_k (v0(a,k)·(-2))·L(j,k) over the block's rows j, the root of the clamped sum,
  and the log-density (-1/2)·(squared length) - c.
-/
import proofs.«181582_j53833120088165_2_alg».proof.Proof.Gen.KernelIdeal.Skeleton
import proofs.«181582_j53833120088165_2_alg».proof.Proof.LibKeepdims
import proofs.«181582_j53833120088165_2_alg».proof.Proof.LibMinFold
import proofs.«181582_j53833120088165_2_alg».proof.Proof.LibPlainFields
import Idealize.ShloMosaic.Lib.Pipeline.Value
import Idealize.ShloMosaic.Lib.ValueLayout

noncomputable section

namespace Cert.Knn.Pay

open Idealize.ShloMosaic Idealize.ShloMosaic.ValueIdx Cert.KernelIdeal Cert.KernelIdeal.Gen

/-- The row's squared length: the products of the row with itself, summed along the row, as a column. -/
theorem pay1_apply (v0 : Vec Ideal S512x32 .f32) (a : Fin 512) :
    k0_pay1 (F := Ideal) v0 (ix2 a (0 : Fin 1)) = ∑ k : Fin 32, v0 (ix2 a k) * v0 (ix2 a k) := by
  unfold k0_pay1
  refine (shapeCast_a_a1_apply _ _ a 0).trans ?_
  refine (multiReduction_add_row _ _ _ _ _ a).trans ?_
  rfl

/-- The log-density: the squared length scaled by the word for -1/2, less the constant's word. -/
theorem pay5_apply (v0 : Vec Ideal S512x32 .f32) (a : Fin 512) :
    k0_pay5 (F := Ideal) v0 (ix2 a (0 : Fin 1))
      = Ideal.ofBits .f32 0xBF000000#32 * (∑ k : Fin 32, v0 (ix2 a k) * v0 (ix2 a k)) - Ideal.ofBits .f32 0x41EB3F8E#32 := by
  unfold k0_pay5
  show Ideal.ofBits .f32 0xBF000000#32 * k0_pay1 (F := Ideal) v0 (ix2 a (0 : Fin 1)) - Ideal.ofBits .f32 0x41EB3F8E#32 = _
  rw [pay1_apply]

/-- The distance: the squared length plus the minimum found, clamped at zero from below, rooted. -/
theorem pay4_apply (v0 : Vec Ideal S512x32 .f32) (v8 : FVec Ideal S512x1 .f32) (a : Fin 512) :
    k0_pay4 (F := Ideal) v0 v8 (ix2 a (0 : Fin 1))
      = Ideal.sqrt (max ((∑ k : Fin 32, v0 (ix2 a k) * v0 (ix2 a k)) + v8 (ix2 a (0 : Fin 1))) 0) := by
  unfold k0_pay4
  show Ideal.sqrt (max (k0_pay1 (F := Ideal) v0 (ix2 a (0 : Fin 1)) + v8 (ix2 a (0 : Fin 1))) (Ideal.ofBits .f32 0x00000000#32)) = _
  rw [pay1_apply, Ideal.ofBits_zero_f32]

/-- The value the running minimum starts from: the word of +∞ at every row. -/
theorem pay2_apply (a : Fin 512) : k0_pay2 (F := Ideal) (ix2 a (0 : Fin 1)) = (⊤ : EReal) := by
  unfold k0_pay2
  show Ideal.ofBits .f32 0x7F800000#32 = _
  exact Cert.MinFold.ofBits_posInf

/-- A lane minimum of an `[a, b]` array from +∞ at row `r`: the infimum over the row. -/
theorem multiReduction_min_row {a b : ℕ} (src : FVec Ideal ⟨2, ![a, b]⟩ .f32)
    (h : (⟨2, ![a, b]⟩ : Shape).Reduces [(1 : Fin 2)] ⟨1, ![a]⟩) (hφ : FKind.Formats .f32)
    (hacc : (0x7F800000#32 : BitVec 32) = FKind.minimumf.neutral .f32 hφ) (r : Fin a) :
    multiReduction .minimumf [(1 : Fin 2)] ⟨1, ![a]⟩ src 0x7F800000#32 h hφ hacc (ix1 r)
      = (Finset.univ : Finset (Fin b)).inf (fun k => src (ix2 r k)) := by
  refine (Cert.MinFold.multiReduction_min_single src h hφ hacc (ix1 r)).trans ?_
  exact congrArg (Finset.univ : Finset (Fin b)).inf (funext fun k => congrArg src (lift_row h r k))

/-- The squared lengths of the block's rows, laid along one row and repeated down the 512 rows: at (a, j) the squared
    length of reference row j. -/
theorem rowsq_bcast_apply (v22 : FVec Ideal S4096x32 .f32) (a : Fin 512) (j : Fin 4096) :
    broadcastTo S512x4096
        (shapeCast S1x4096
          (multiReduction (F := Ideal) .add [1] S4096 (mulf (F := Ideal) v22 v22) 0x00000000#32 reduces_S4096x32_S4096 (.inl rfl) rfl)
          shapeCasts_S4096_S1x4096)
        broadcasts_S1x4096_S512x4096 (ix2 a j)
      = ∑ k : Fin 32, v22 (ix2 j k) * v22 (ix2 j k) := by
  refine (broadcastTo_1b_ab_apply _ _ a j).trans ?_
  refine (shapeCast_a_1a_apply _ _ 0 j).trans ?_
  refine (multiReduction_add_row _ _ _ _ _ j).trans ?_
  rfl

/-- The product of the scaled query block by the transposed reference block, into the zero block: at (a, j) the sum
    over k of (v0(a,k)·(-2))·L(j,k). -/
theorem cross_apply (v0 : FVec Ideal S512x32 .f32) (v22 : FVec Ideal S4096x32 .f32) (a : Fin 512) (j : Fin 4096) :
    matmul (F := Ideal) dot_S512x32_S32x4096_S512x4096_1_0_0_1_n_n (some .fp32)
        (mulf (F := Ideal) v0 (broadcast S512x32 (Scalar.ofBits (F := Ideal) .f32 0xC0000000#32)))
        (transpose S32x4096 [1, 0] v22 transposes_S4096x32_p1_0_S32x4096 : FVec Ideal S32x4096 .f32)
        (constant (F := Ideal) S512x4096 .f32 0x00000000#32) (ix2 a j)
      = ∑ k : Fin 32, (v0 (ix2 a k) * Ideal.ofBits .f32 0xC0000000#32) * v22 (ix2 j k) := by
  refine (Cert.LibPlainFields.matmul_plainFields_zero_apply _ rfl rfl rfl rfl rfl rfl _ _ _ a j).trans ?_
  exact Finset.sum_congr rfl fun k _ =>
    congrArg (v0 (ix2 a k) * Ideal.ofBits .f32 0xC0000000#32 * ·) (transpose_ix2_apply v22 _ k j)

/-- One trip's update of the running minimum: the minimum of the running value and, over the block's 4096 reference
    rows j, of (squared length of row j) + Σ_k (v0(a,k)·(-2))·L(j,k). -/
theorem pay3_apply (v0 : Vec Ideal S512x32 .f32) (acc : FVec Ideal S512x1 .f32) (v22 : Vec Ideal S4096x32 .f32) (a : Fin 512) :
    k0_pay3 (F := Ideal) v0 acc v22 (ix2 a (0 : Fin 1))
      = min (acc (ix2 a (0 : Fin 1))) ((Finset.univ : Finset (Fin 4096)).inf fun j =>
          (∑ k : Fin 32, v22 (ix2 j k) * v22 (ix2 j k))
            + ∑ k : Fin 32, (v0 (ix2 a k) * Ideal.ofBits .f32 0xC0000000#32) * v22 (ix2 j k)) := by
  unfold k0_pay3
  refine (minimumf_apply _ _ _).trans ?_
  refine congrArg (min (acc (ix2 a (0 : Fin 1)))) ?_
  refine (shapeCast_a_a1_apply _ _ a 0).trans ?_
  refine (multiReduction_min_row _ _ _ _ a).trans ?_
  refine congrArg (Finset.univ : Finset (Fin 4096)).inf (funext fun j => ?_)
  refine (addf_apply _ _ _).trans ?_
  exact congrArg₂ (· + ·) (rowsq_bcast_apply v22 a j) (cross_apply v0 v22 a j)

end Cert.Knn.Pay

end
-- ==== Proof.BlockMin.lean ====
/-
  A running minimum over sixteen blocks of 4096 values is the infimum of all 65536.

  A sequence starts at ⊤ and at step n takes the minimum of its value with the infimum of the values numbered
  4096·n … 4096·n + 4095. By induction on n, a number lies below the sequence's n-th value exactly when it lies below
  every value numbered less than 4096·n: at 0 both sides hold of every number; at n + 1, lying below a minimum is lying
  below both parts, and a number less than 4096·(n + 1) is either less than 4096·n or of the form 4096·n + b with
  b < 4096. At n = 16 every number below 65536 is counted, and two extended reals with the same numbers below them are
  equal.
-/
import proofs.«181582_j53833120088165_2_alg».proof.Proof.LibMinFold

noncomputable section

namespace Cert.Knn

/-- After n steps, the numbers below the running minimum are those below every value numbered less than 4096·n. -/
theorem blocks_min_le_iff (y : Fin 65536 → EReal) (s : ℕ → EReal) (h0 : s 0 = ⊤)
    (hs : ∀ (n : ℕ) (hn : n < 16), s (n + 1) = min (s n) ((Finset.univ : Finset (Fin 4096)).inf fun j => y ⟨4096 * n + j.val, by have := j.isLt; omega⟩))
    (n : ℕ) (hn : n ≤ 16) (z : EReal) :
    z ≤ s n ↔ ∀ j : Fin 65536, j.val < 4096 * n → z ≤ y j := by
  induction n with
  | zero =>
    rw [h0]
    exact ⟨fun _ j hj => absurd hj (by omega), fun _ => le_top⟩
  | succ n ih =>
    have hn' : n < 16 := by omega
    rw [hs n hn', le_min_iff, ih (by omega), Finset.le_inf_iff]
    constructor
    · rintro ⟨h1, h2⟩ j hj
      by_cases hlt : j.val < 4096 * n
      · exact h1 j hlt
      · have hb := h2 ⟨j.val - 4096 * n, by omega⟩ (Finset.mem_univ _)
        have e : (⟨4096 * n + (j.val - 4096 * n), by have := j.isLt; omega⟩ : Fin 65536) = j :=
          Fin.ext (by show 4096 * n + (j.val - 4096 * n) = j.val; omega)
        exact hb.trans (le_of_eq (congrArg y e))
    · intro h
      refine ⟨fun j hj => h j (by omega), fun b _ => h _ ?_⟩
      show 4096 * n + b.val < 4096 * (n + 1)
      have := b.isLt
      omega

/-- The running minimum over the sixteen blocks ends at the infimum of all the values. -/
theorem blocks_min (y : Fin 65536 → EReal) (s : ℕ → EReal) (h0 : s 0 = ⊤)
    (hs : ∀ (n : ℕ) (hn : n < 16), s (n + 1) = min (s n) ((Finset.univ : Finset (Fin 4096)).inf fun j => y ⟨4096 * n + j.val, by have := j.isLt; omega⟩)) :
    s 16 = (Finset.univ : Finset (Fin 65536)).inf y := by
  refine eq_of_forall_le_iff fun z => ?_
  rw [blocks_min_le_iff y s h0 hs 16 le_rfl z, Finset.le_inf_iff]
  exact ⟨fun h j _ => h j (by have := j.isLt; omega), fun h j _ => h j (Finset.mem_univ j)⟩

end Cert.Knn

end
-- ==== Proof.RunMin.lean ====
/-
  The loop's last carried value is the infimum over every row of the reference table.

  The loop makes sixteen trips. Trip k loads rows 4096·k … 4096·k + 4095 of the reference table: a unit-stride block
  whose offsets are (4096·k, 0), so its entry (j, q) is the table's entry (4096·k + j, q). The carried value starts at
  +∞, and each trip replaces it, per query row, by the minimum of itself and the infimum over the trip's 4096 rows of
  (row square + cross term). A running minimum over sixteen blocks of 4096 is the infimum over all 65536.
-/
import proofs.«181582_j53833120088165_2_alg».proof.Proof.Pieces
import proofs.«181582_j53833120088165_2_alg».proof.Proof.BlockMin
import proofs.«181582_j53833120088165_2_alg».proof.Proof.Payloads

noncomputable section

namespace Cert.KernelIdeal.Blocks

open Idealize.ShloMosaic Idealize.ShloMosaic.ValueIdx Cert.KernelIdeal Cert.KernelIdeal.Gen

/-- The loop runs from 0 to 16 by steps of 1: sixteen trips. -/
theorem trips_eq : k0_t1_loop.trips = 16 := by decide

/-- Entry (j, q) of the rows trip `k` loads is entry (4096·k + j, q) of the table. -/
theorem chunk_apply {F : FTy → Type} [FloatOps F] (L : Vec F S65536x32 .f32) (k : Fin k0_t1_loop.trips) (j : Fin 4096) (q : Fin 32) :
    chunk L k (ix2 j q) = L (ix2 (⟨4096 * k.val + j.val, by have := j.isLt; have := k.isLt; have := trips_eq; omega⟩ : Fin 65536) q) := by
  show L ((Rect.unit (s := S65536x32) (k0_off1 k) S4096x32.size (k0_off1_inb k)).idx (ix2 j q)) = _
  refine congrArg L (funext fun a => Fin.ext ?_)
  show k0_off1 k a + 1 * (ix2 j q a).val = _
  rw [k0_off1_eq]
  fin_cases a
  · show 4096 * k.val + 1 * j.val = 4096 * k.val + j.val
    omega
  · show 0 + 1 * q.val = q.val
    omega

/-- After the last trip the carried value at query row `a` is the infimum, over all rows j of the table, of the row's
    square plus its cross term with the query row scaled by the word for -2. -/
theorem runMin_last (x0 : Vec Ideal S512x32 .f32) (L : Vec Ideal S65536x32 .f32) (a : Fin 512) :
    runMin (F := Ideal) x0 L k0_t1_loop.trips (ix2 a (0 : Fin 1))
      = (Finset.univ : Finset (Fin 65536)).inf fun j => (∑ k : Fin 32, L (ix2 j k) * L (ix2 j k)) + ∑ k : Fin 32, (x0 (ix2 a k) * Ideal.ofBits .f32 0xC0000000#32) * L (ix2 j k) := by
  rw [trips_eq]
  refine Cert.Knn.blocks_min
    (fun j => (∑ k : Fin 32, L (ix2 j k) * L (ix2 j k)) + ∑ k : Fin 32, (x0 (ix2 a k) * Ideal.ofBits .f32 0xC0000000#32) * L (ix2 j k))
    (fun n => runMin (F := Ideal) x0 L n (ix2 a (0 : Fin 1))) ?_ ?_
  · exact Cert.Knn.Pay.pay2_apply a
  · intro n hn
    have h : n < k0_t1_loop.trips := by rw [trips_eq]; exact hn
    show runMin (F := Ideal) x0 L (n + 1) (ix2 a (0 : Fin 1)) = _
    rw [runMin, dif_pos h, Cert.Knn.Pay.pay3_apply]
    refine congrArg (min _) (Finset.inf_congr rfl fun j _ => ?_)
    have hc : ∀ q : Fin 32, chunk L ⟨n, h⟩ (ix2 j q)
        = L (ix2 (⟨4096 * n + j.val, by have := j.isLt; omega⟩ : Fin 65536) q) := fun q => chunk_apply L ⟨n, h⟩ j q
    simp only [hc]

end Cert.KernelIdeal.Blocks

end
-- ==== Proof.Spec.lean ====
/-
  Nearest-neighbour distance and Gaussian log-density of the rows of a table U against a reference table L, as functions
  of the two tables at an index.

  For row r of U (4096 rows of 32 numbers) and row j of L (65536 rows of 32 numbers):
    usq r = Σ_k U(r,k)²,   lsq j = Σ_k L(j,k)²,
    dens r = (-1/2)·usq r - c                       (c one fixed float, the same word in both programs),
  and the distance to the nearest row of L in two arrangements:
    divK r = √(max(usq r + min_j (lsq j + Σ_k (U(r,k)·(-2))·L(j,k)), 0))     (the row scaled by -2 before the products,
                                                                               the row's own square added after the minimum),
    divR r = min_j √(max((usq r + lsq j) - 2·Σ_k U(r,k)·L(j,k), 0))          (every squared distance formed, rooted, then
                                                                               the minimum taken).
  The float words are kept as words; their values are only needed where the two arrangements are joined.
-/
import Idealize.ShloMosaic.PureOps.Ideal
import Idealize.ShloMosaic.Lib.ValueIdx

noncomputable section

namespace Cert.Knn

open Idealize.ShloMosaic Idealize.ShloMosaic.ValueIdx

/-- The table of query rows, the table of reference rows. -/
abbrev SU : Shape := ⟨2, ![4096, 32]⟩
abbrev SL : Shape := ⟨2, ![65536, 32]⟩

/-- The squared length of row `r` of `U`. -/
def usq (U : SU.Idx → EReal) (r : Fin 4096) : EReal := ∑ k : Fin 32, U (ix2 r k) * U (ix2 r k)

/-- The squared length of row `j` of `L`. -/
def lsq (L : SL.Idx → EReal) (j : Fin 65536) : EReal := ∑ k : Fin 32, L (ix2 j k) * L (ix2 j k)

/-- The cross term with the row of `U` scaled by the word for -2 first: Σ_k (U(r,k)·(-2))·L(j,k). -/
def crossK (U : SU.Idx → EReal) (L : SL.Idx → EReal) (r : Fin 4096) (j : Fin 65536) : EReal :=
  ∑ k : Fin 32, (U (ix2 r k) * Ideal.ofBits .f32 0xC0000000#32) * L (ix2 j k)

/-- The plain inner product of row `r` of `U` and row `j` of `L`. -/
def crossR (U : SU.Idx → EReal) (L : SL.Idx → EReal) (r : Fin 4096) (j : Fin 65536) : EReal :=
  ∑ k : Fin 32, U (ix2 r k) * L (ix2 j k)

/-- The log-density of row `r`: (-1/2)·usq r minus the constant. -/
def dens (U : SU.Idx → EReal) (r : Fin 4096) : EReal :=
  Ideal.ofBits .f32 0xBF000000#32 * usq U r - Ideal.ofBits .f32 0x41EB3F8E#32

/-- The distance from row `r` to the nearest row of `L`, the minimum taken over the part of the squared distance that
    depends on `j`, the row's own square and the root applied once. -/
def divK (U : SU.Idx → EReal) (L : SL.Idx → EReal) (r : Fin 4096) : EReal :=
  Ideal.sqrt (max (usq U r + (Finset.univ : Finset (Fin 65536)).inf fun j => lsq L j + crossK U L r j) 0)

/-- The same distance, every squared distance formed and rooted before the minimum. -/
def divR (U : SU.Idx → EReal) (L : SL.Idx → EReal) (r : Fin 4096) : EReal :=
  (Finset.univ : Finset (Fin 65536)).inf fun j =>
    Ideal.sqrt (max ((usq U r + lsq L j) - Ideal.ofBits .f32 0x40000000#32 * crossR U L r j) 0)

end Cert.Knn

end
-- ==== Proof.BlockValue.lean ====
/-
  The two output blocks of a grid point, row by row, as the specification's two columns.

  At grid point t the kernel's body reads rows 512·t … 512·t + 511 of the query table and the whole reference table.
  Its log-density block holds, at row a, (-1/2)·(squared length of query row 512·t + a) minus the constant; its distance
  block holds the root of the clamped sum of that squared length and the minimum, over all 65536 reference rows j, of
  (squared length of row j) + Σ_k (query(512·t + a, k)·(-2))·reference(j, k).
-/
import proofs.«181582_j53833120088165_2_alg».proof.Proof.Pieces
import proofs.«181582_j53833120088165_2_alg».proof.Proof.KernelArray
import proofs.«181582_j53833120088165_2_alg».proof.Proof.Payloads
import proofs.«181582_j53833120088165_2_alg».proof.Proof.RunMin
import proofs.«181582_j53833120088165_2_alg».proof.Proof.Spec

noncomputable section

namespace Cert.KernelIdeal.Blocks

open Idealize.ShloMosaic Idealize.ShloMosaic.ValueIdx Cert.KernelIdeal Cert.KernelIdeal.Gen

variable (m : (ℓ : Loc nD τ sig) → Buf (Elt Ideal) ℓ)

/-- The log-density block of point t at row a is the specification's log-density of query row 512·t + a. -/
theorem block_dens (c : Dev nD) (t : Fin cfg0.N) (a : Fin 512) :
    (outsAt0 m c t).1 (ix2 a (0 : Fin 1))
      = Cert.Knn.dens (V m c main_arg1) (⟨512 * t.val + a.val, by have := a.isLt; have := t_lt t; omega⟩ : Fin 4096) := by
  show out0_A_2 c (grid0.coords t) (ms0_0 t) (hs0_0 t) (ms0_1 t) (hs0_1 t) (ms0_2 t) (hs0_2 t) (ms0_3 t) (hs0_3 t)
      (iblk m c 0 t) (iblk m c 1 t) (ix2 a (0 : Fin 1)) = _
  refine (congrFun (out_dens (F := Ideal) c (grid0.coords t) (ms0_0 t) (hs0_0 t) (ms0_1 t) (hs0_1 t) (ms0_2 t) (hs0_2 t)
    (ms0_3 t) (hs0_3 t) (iblk m c 0 t) (iblk m c 1 t)) (ix2 a (0 : Fin 1))).trans ?_
  refine (Cert.Knn.Pay.pay5_apply (iblk m c 0 t) a).trans ?_
  unfold Cert.Knn.dens Cert.Knn.usq
  refine congrArg (fun s => Ideal.ofBits .f32 0xBF000000#32 * s - Ideal.ofBits .f32 0x41EB3F8E#32) ?_
  exact Finset.sum_congr rfl fun k _ => congrArg₂ (· * ·) (iblk0_apply m c t a k) (iblk0_apply m c t a k)

/-- The distance block of point t at row a is the specification's distance, in the kernel's arrangement, of query row
    512·t + a to the nearest reference row. -/
theorem block_div (c : Dev nD) (t : Fin cfg0.N) (a : Fin 512) :
    (outsAt0 m c t).2 (ix2 a (0 : Fin 1))
      = Cert.Knn.divK (V m c main_arg1) (V m c main_arg2) (⟨512 * t.val + a.val, by have := a.isLt; have := t_lt t; omega⟩ : Fin 4096) := by
  show out0_A_3 c (grid0.coords t) (ms0_0 t) (hs0_0 t) (ms0_1 t) (hs0_1 t) (ms0_2 t) (hs0_2 t) (ms0_3 t) (hs0_3 t)
      (iblk m c 0 t) (iblk m c 1 t) (ix2 a (0 : Fin 1)) = _
  refine (congrFun (out_div (F := Ideal) c (grid0.coords t) (ms0_0 t) (hs0_0 t) (ms0_1 t) (hs0_1 t) (ms0_2 t) (hs0_2 t)
    (ms0_3 t) (hs0_3 t) (iblk m c 0 t) (iblk m c 1 t)) (ix2 a (0 : Fin 1))).trans ?_
  refine (Cert.Knn.Pay.pay4_apply (iblk m c 0 t) (runMin (F := Ideal) (iblk m c 0 t) (iblk m c 1 t) k0_t1_loop.trips) a).trans ?_
  have e : (iblk m c 1 t : Vec Ideal S65536x32 .f32) = V m c main_arg2 := iblk1_eq m c t
  have hr := runMin_last (iblk m c 0 t) (iblk m c 1 t) a
  unfold Cert.Knn.divK Cert.Knn.usq Cert.Knn.lsq Cert.Knn.crossK
  refine congrArg (fun s => Ideal.sqrt (max s 0)) ?_
  refine congrArg₂ (· + ·)
    (Finset.sum_congr rfl fun k _ => congrArg₂ (· * ·) (iblk0_apply m c t a k) (iblk0_apply m c t a k)) ?_
  refine hr.trans ?_
  refine congrArg (Finset.univ : Finset (Fin 65536)).inf (funext fun j => ?_)
  refine congrArg₂ (· + ·) ?_ ?_
  · exact Finset.sum_congr rfl fun k _ => congrArg₂ (· * ·) (congrFun e (ix2 j k)) (congrFun e (ix2 j k))
  · exact Finset.sum_congr rfl fun k _ =>
      congrArg₂ (· * ·) (congrArg (· * Ideal.ofBits .f32 0xC0000000#32) (iblk0_apply m c t a k)) (congrFun e (ix2 j k))

end Cert.KernelIdeal.Blocks

end
-- ==== Proof.Tail.lean ====
/-
  The last steps both programs share, as one function of two vectors of 4096 numbers.

  From the log-density vector d and the nearest-distance vector v:
    e  = exp (d + log (v + ε))                      (ε the word for 1e-18, spread over the vector),
    e' = e - min e                                   (the minimum over the whole vector, from +∞, spread back),
    result = e' / (max e' + ε)                       (the maximum over the whole vector, from -∞, ε added to the one number,
                                                      the sum spread back).
  The side conditions of the spreading and of the two whole-vector reductions are arguments, so that the proofs a
  program carries for them fit.  The definition is only ever compared with itself; nothing here evaluates it.
-/
import Idealize.ShloMosaic.PureOps
import Idealize.ShloMosaic.PureOps.Ideal
import Idealize.ShloMosaic.Lib.ValueIdx

noncomputable section

namespace Cert.Knn

open Idealize.ShloMosaic

/-- A vector of 4096 numbers; a single number. -/
abbrev SV : Shape := ⟨1, ![4096]⟩
abbrev S0 : Shape := ⟨0, ![]⟩

/-- The common last steps: exponentiate the sum of the log-density and the logarithm of the shifted distance, subtract
    the vector's minimum, divide by the shifted maximum of the difference. -/
def tail (hb : S0.BroadcastsInDim SV (![] : Fin 0 → Fin SV.rank)) (hr : SV.ReducesTo [0] S0) (hu : 0 < S0.numel)
    (dens div : FVec Ideal SV .f32) : FVec Ideal SV .f32 :=
  let dd : FVec Ideal SV .f32 :=
    Host.exp (F := Ideal) (addf (F := Ideal) dens
      (Host.log (F := Ideal) (addf (F := Ideal) div (broadcastInDim SV ![] hb (constant (F := Ideal) S0 .f32 0x219392EF#32)))))
  let d2 : FVec Ideal SV .f32 :=
    subf (F := Ideal) dd
      (broadcastInDim SV ![] hb
        (Host.reduce (FloatOps.minimumf (F := Ideal) (φ := .f32)) dd (constant (F := Ideal) S0 .f32 0x7F800000#32) hr hu))
  Host.divf (F := Ideal) d2
    (broadcastInDim SV ![] hb
      (addf (F := Ideal)
        (Host.reduce (FloatOps.maximumf (F := Ideal) (φ := .f32)) d2 (constant (F := Ideal) S0 .f32 0xFF800000#32) hr hu)
        (constant (F := Ideal) S0 .f32 0x219392EF#32)))

end Cert.Knn

end
-- ==== Proof.KernelTail.lean ====
/-
  The kernel program's lines after its region are the common tail applied to the region's two output columns, each
  recast from a column of 4096 rows to a vector of 4096 numbers.

  After the region the third and fourth arrays hold the region's results; the two recasts read them, and the twelve
  lines that follow are the tail's steps, one for one, in the same order with the same words.
-/
import proofs.«181582_j53833120088165_2_alg».proof.Proof.Gen.KernelIdeal.Frame
import proofs.«181582_j53833120088165_2_alg».proof.Proof.Tail

noncomputable section

namespace Cert.KernelIdeal.Blocks

open Idealize.ShloMosaic Idealize.ShloMosaic.TcCoe Idealize.SL.Sem Idealize.ShloMosaic.StableHlo Cert.KernelIdeal Cert.KernelIdeal.Gen

/-- the kernel program's result is the common tail of its two recast output columns as the region leaves them -/
theorem kernel_tail (m : (ℓ : Loc nD τ sig) → Buf (Elt Ideal) ℓ) (c : Dev nD) :
    Pipeline.afterTail₀ cfgs (dats m) 0 (V0 m) [hostOps1] c main_v14
      = Cert.Knn.tail bcast_S_S4096 reducesTo_S4096_S_d0 h_S_
          (shapeCast S4096 ((dats m 0 c).arrAt 2 cfg0.N) shapeCasts_S4096x1_S4096)
          (shapeCast S4096 ((dats m 0 c).arrAt 3 cfg0.N) shapeCasts_S4096x1_S4096) := by
  -- set the right-hand side aside while the left-hand side is read line by line
  generalize hR : Cert.Knn.tail bcast_S_S4096 reducesTo_S4096_S_d0 h_S_
          (shapeCast S4096 ((dats m 0 c).arrAt 2 cfg0.N) shapeCasts_S4096x1_S4096)
          (shapeCast S4096 ((dats m 0 c).arrAt 3 cfg0.N) shapeCasts_S4096x1_S4096) = R
  unfold Pipeline.afterTail₀
  show StableHlo.after (hostOps1 (F := Ideal)) _ (Proc.devRef .tc main_v14) = _
  after_results
  -- the two arrays the recasts read are the third and fourth arrays of the region, as the region leaves them
  have e0 : Pipeline.withArrays (cfgs 0).spec c (V0 m c) (fun w => (dats m 0 c).arrAt w (cfgs 0).N)
      (Proc.devRef .tc main_v0_0) = (dats m 0 c).arrAt 2 cfg0.N :=
    Pipeline.withArrays_arr spec0 launch0.win.arr_inj c _ _ 2
  have e1 : Pipeline.withArrays (cfgs 0).spec c (V0 m c) (fun w => (dats m 0 c).arrAt w (cfgs 0).N)
      (Proc.devRef .tc main_v0_1) = (dats m 0 c).arrAt 3 cfg0.N :=
    Pipeline.withArrays_arr spec0 launch0.win.arr_inj c _ _ 3
  rw [e0, e1, ← hR]
  unfold Cert.Knn.tail
  rfl

end Cert.KernelIdeal.Blocks

end
-- ==== Proof.LibColumnDrop.lean ====
/-
  A column with its unit axis dropped, read at an index.

  A keepdims result [a, 1] reshaped to the vector [a] (jnp's x[:, 0] on a one-column array prints as a reshape) reads, at
  i, the column at (i, 0): the row-major position of i in [a] is i, and of (i, 0) in [a, 1] is i·1 + 0.
  Generic in the extent and the element type.
-/
import Idealize.ShloMosaic.Lib.Pipeline.Value
import Idealize.ShloMosaic.Lib.ValueIdx

namespace Cert.LibColumnDrop

open Idealize.ShloMosaic Idealize.ShloMosaic.ValueIdx

/-- A column [a, 1] with its unit axis dropped reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnDrop
-- ==== Proof.KernelValue.lean ====
/-
  The kernel program's result as one function of the two tables.

  After the run the first output column holds the log-density of every query row and the second its distance to the
  nearest reference row (first arrangement); @main then drops each column's unit axis and applies the common last steps.
  So the result vector is those last steps of the two vectors r ↦ dens U r and r ↦ divK U L r, with U and L the tables
  as launched, which the run leaves unchanged.
-/
import proofs.«181582_j53833120088165_2_alg».proof.Proof.KernelArray
import proofs.«181582_j53833120088165_2_alg».proof.Proof.BlockValue
import proofs.«181582_j53833120088165_2_alg».proof.Proof.KernelTail
import proofs.«181582_j53833120088165_2_alg».proof.Proof.Tail
import proofs.«181582_j53833120088165_2_alg».proof.Proof.Spec
import proofs.«181582_j53833120088165_2_alg».proof.Proof.LibColumnDrop

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The two columns as functions of the tables. -/
def densCol (U : Cert.Knn.SU.Idx → EReal) : Vec Ideal S4096x1 .f32 := fun i => Cert.Knn.dens U (i 0)
def divCol (U : Cert.Knn.SU.Idx → EReal) (L : Cert.Knn.SL.Idx → EReal) : Vec Ideal S4096x1 .f32 := fun i => Cert.Knn.divK U L (i 0)

/-- The first output column after the run: every row's log-density. -/
theorem final_dens (c : Dev nD) : (dats m 0 c).arrAt 2 cfg0.N = densCol (V m c main_arg1) :=
  final_col2 m c (densCol (V m c main_arg1)) fun t a => block_dens m c t a

/-- The second output column after the run: every row's distance to its nearest reference row. -/
theorem final_div (c : Dev nD) : (dats m 0 c).arrAt 3 cfg0.N = divCol (V m c main_arg1) (V m c main_arg2) :=
  final_col3 m c (divCol (V m c main_arg1) (V m c main_arg2)) fun t a => block_div m c t a

/-- The result vector: the common last steps of the log-density vector and the distance vector. -/
def result (U : Cert.Knn.SU.Idx → EReal) (L : Cert.Knn.SL.Idx → EReal) : FVec Ideal Cert.Knn.SV .f32 :=
  Cert.Knn.tail bcast_S_S4096 reducesTo_S4096_S_d0 h_S_ (fun i => Cert.Knn.dens U (i 0)) (fun i => Cert.Knn.divK U L (i 0))

/-- What @main's last lines leave in the result buffer. -/
theorem tail_result (c : Dev nD) :
    Pipeline.afterTail₀ cfgs (dats m) 0 (V0 m) [hostOps1] c main_v14 = result (m ((c : Thread nD τ).loc main_arg1)) (m ((c : Thread nD τ).loc main_arg2)) := by
  rw [kernel_tail, final_dens, final_div]
  unfold result
  have e1 : shapeCast S4096 (densCol (V m c main_arg1)) shapeCasts_S4096x1_S4096 = fun i => Cert.Knn.dens (m ((c : Thread nD τ).loc main_arg1)) (i 0) := by
    funext i
    obtain ⟨r, rfl⟩ : ∃ r : Fin 4096, i = ix1 r := ⟨i 0, eq_ix1 i⟩
    exact Cert.LibColumnDrop.shapeCast_a1_a_apply _ _ r
  have e2 : shapeCast S4096 (divCol (V m c main_arg1) (V m c main_arg2)) shapeCasts_S4096x1_S4096 = fun i => Cert.Knn.divK (m ((c : Thread nD τ).loc main_arg1)) (m ((c : Thread nD τ).loc main_arg2)) (i 0) := by
    funext i
    obtain ⟨r, rfl⟩ : ∃ r : Fin 4096, i = ix1 r := ⟨i 0, eq_ix1 i⟩
    exact Cert.LibColumnDrop.shapeCast_a1_a_apply _ _ r
  rw [e1, e2]

/-- The run, read: the result buffer at the result vector, the three arguments unchanged. -/
theorem run : θ_run defs (onTc (τ := τ) (main (F := Ideal))) ⟨m, fun _ => 0, ρ⟩ fun r => ∀ c : Dev nD,
      r.2.mem ((c.tc : Thread nD τ).loc main_v14) = result (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_result m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.KernelIdeal.Blocks

end
-- ==== Proof.RefSide.lean ====
/-
  The reference program's two row stages, read back as the specification's functions of the two tables.

  The log-density stage multiplies the word for -1/2 into the row's sum of squares and subtracts the constant word; the
  nearest-distance stage forms, for every pair (r, j), the row squares' sum minus twice the inner product, clamps it at
  zero, roots it, and takes the minimum over j from +∞.  Each stage reads one element of each operand at an index, so
  the chain of readings ends at the two tables at (r, k) and (j, k).
-/
import proofs.«181582_j53833120088165_2_alg».proof.Proof.Gen.ReferenceIdeal.Read
import proofs.«181582_j53833120088165_2_alg».proof.Proof.Spec
import proofs.«181582_j53833120088165_2_alg».proof.Proof.LibMinFold
import proofs.«181582_j53833120088165_2_alg».proof.Proof.LibKeepdims

noncomputable section

namespace Cert.Knn.RefSide

open Idealize.ShloMosaic Idealize.ShloMosaic.ValueIdx Cert.ReferenceIdeal Cert.ReferenceIdeal.Gen Cert.ReferenceIdeal.Read

/-- the reference's row sum of squares of the first table (first copy) -/
theorem ref_usq1 (U : (⟨S4096x32, .f32⟩ : BufTy).Contents (Elt Ideal)) (r : Fin 4096) :
    val_main_v1 (F := Ideal) U (ix1 r) = Cert.Knn.usq U r := by
  rw [val_main_v1_apply, val_main_cst_apply]
  unfold Cert.Knn.usq
  simp only [Ideal.ofBits_def, Ideal.ofBits_zero_f32, zero_add]
  refine Finset.sum_congr rfl fun k _ => ?_
  have e : idx_main_v1 (ix1 r) k = ix2 r k :=
    funext fun a => Fin.ext (by match a with | ⟨0, _⟩ => rfl | ⟨1, _⟩ => rfl)
  rw [e, val_main_v0_apply, Ideal.mulf_def]

/-- the reference's log-density stage is the specification's, row by row -/
theorem ref_dens (U : (⟨S4096x32, .f32⟩ : BufTy).Contents (Elt Ideal)) (r : Fin 4096) :
    val_main_v5 (F := Ideal) U (ix1 r) = Cert.Knn.dens U r := by
  rw [val_main_v5_apply, val_main_v3_apply, val_main_v2_apply, val_main_v4_apply, val_main_cst_0_apply,
    val_main_cst_1_apply, ref_usq1]
  unfold Cert.Knn.dens
  simp only [Ideal.ofBits_def, Ideal.mulf_def, Ideal.subf_def]

/-- the reference's row sum of squares of the first table (second copy) -/
theorem ref_usq2 (U : (⟨S4096x32, .f32⟩ : BufTy).Contents (Elt Ideal)) (r : Fin 4096) :
    val_main_v7 (F := Ideal) U (ix1 r) = Cert.Knn.usq U r := by
  rw [val_main_v7_apply, val_main_cst_2_apply]
  unfold Cert.Knn.usq
  simp only [Ideal.ofBits_def, Ideal.ofBits_zero_f32, zero_add]
  refine Finset.sum_congr rfl fun k _ => ?_
  have e : idx_main_v7 (ix1 r) k = ix2 r k :=
    funext fun a => Fin.ext (by match a with | ⟨0, _⟩ => rfl | ⟨1, _⟩ => rfl)
  rw [e, val_main_v6_apply, Ideal.mulf_def]

/-- the reference's row sum of squares of the second table -/
theorem ref_lsq (L : (⟨S65536x32, .f32⟩ : BufTy).Contents (Elt Ideal)) (j : Fin 65536) :
    val_main_v10 (F := Ideal) L (ix1 j) = Cert.Knn.lsq L j := by
  rw [val_main_v10_apply, val_main_cst_3_apply]
  unfold Cert.Knn.lsq
  simp only [Ideal.ofBits_def, Ideal.ofBits_zero_f32, zero_add]
  refine Finset.sum_congr rfl fun k _ => ?_
  have e : idx_main_v10 (ix1 j) k = ix2 j k :=
    funext fun a => Fin.ext (by match a with | ⟨0, _⟩ => rfl | ⟨1, _⟩ => rfl)
  rw [e, val_main_v9_apply, Ideal.mulf_def]

/-- the reference's product of the first table with the transposed second table is the plain inner product of the rows -/
theorem ref_cross (U : (⟨S4096x32, .f32⟩ : BufTy).Contents (Elt Ideal)) (L : (⟨S65536x32, .f32⟩ : BufTy).Contents (Elt Ideal))
    (r : Fin 4096) (j : Fin 65536) :
    val_main_v16 (F := Ideal) U L (ix2 r j) = Cert.Knn.crossR U L r j := by
  rw [val_main_v16_apply]
  unfold Cert.Knn.crossR
  refine Finset.sum_congr rfl fun k _ => ?_
  have el : lidx_main_v16 (ix2 r j) k = ix2 r k :=
    funext fun a => Fin.ext (by match a with | ⟨0, _⟩ => rfl | ⟨1, _⟩ => rfl)
  have er : idx_main_v15 (ridx_main_v16 (ix2 r j) k) = ix2 j k :=
    funext fun a => Fin.ext (by match a with | ⟨0, _⟩ => rfl | ⟨1, _⟩ => rfl)
  rw [el, val_main_v15_apply, er]

/-- one squared distance of the reference, clamped and rooted, at the pair (r, j) -/
theorem ref_dist (U : (⟨S4096x32, .f32⟩ : BufTy).Contents (Elt Ideal)) (L : (⟨S65536x32, .f32⟩ : BufTy).Contents (Elt Ideal))
    (r : Fin 4096) (j : Fin 65536) :
    val_main_v22 (F := Ideal) U L (ix2 r j)
      = Ideal.sqrt (max ((Cert.Knn.usq U r + Cert.Knn.lsq L j) - Ideal.ofBits .f32 0x40000000#32 * Cert.Knn.crossR U L r j) 0) := by
  have e8 : idx_main_v8 (idx_main_v12 (ix2 r j)) = ix1 r :=
    funext fun a => Fin.ext (by match a with | ⟨0, _⟩ => rfl)
  have e11 : idx_main_v11 (idx_main_v13 (ix2 r j)) = ix1 j :=
    funext fun a => Fin.ext (by match a with | ⟨0, _⟩ => rfl)
  rw [val_main_v22_apply, val_main_v21_apply, val_main_v19_apply, val_main_v20_apply, val_main_cst_5_apply,
    val_main_v14_apply, val_main_v18_apply, val_main_v17_apply, val_main_cst_4_apply, val_main_v12_apply,
    val_main_v13_apply, val_main_v8_apply, val_main_v11_apply, e8, e11, ref_usq2, ref_lsq, ref_cross]
  simp only [Ideal.ofBits_def, Ideal.ofBits_zero_f32, Ideal.mulf_def, Ideal.addf_def, Ideal.subf_def,
    Ideal.maximumf_def, Ideal.hostUnary_sqrt_def]

/-- the reference's nearest-distance stage is the specification's second arrangement, row by row -/
theorem ref_div (U : (⟨S4096x32, .f32⟩ : BufTy).Contents (Elt Ideal)) (L : (⟨S65536x32, .f32⟩ : BufTy).Contents (Elt Ideal)) (r : Fin 4096) :
    val_main_v23 (F := Ideal) U L (ix1 r) = Cert.Knn.divR U L r := by
  have h : S4096x65536.Reduces [1] S4096 := by decide
  unfold val_main_v23
  refine (Cert.MinFold.hostReduce_min_single (val_main_v22 (F := Ideal) U L) reducesTo_S4096x65536_S4096_d1 h h_S_ (ix1 r)).trans ?_
  unfold Cert.Knn.divR
  refine Finset.inf_congr rfl fun j _ => ?_
  rw [lift_row h r j]
  exact ref_dist U L r j

end Cert.Knn.RefSide

end
-- ==== Proof.RefTail.lean ====
/-
  The reference program's last twelve steps are the common tail applied to its log-density stage and its
  nearest-distance stage: the steps are the tail's, one for one, in the same order with the same words.
-/
import proofs.«181582_j53833120088165_2_alg».proof.Proof.Gen.ReferenceIdeal.Read
import proofs.«181582_j53833120088165_2_alg».proof.Proof.Tail

noncomputable section

namespace Cert.Knn.RefSide

open Idealize.ShloMosaic Idealize.ShloMosaic.ValueIdx Cert.ReferenceIdeal Cert.ReferenceIdeal.Gen Cert.ReferenceIdeal.Read

/-- the reference's result is the common tail of its log-density and nearest-distance stages -/
theorem ref_tail (U : (⟨S4096x32, .f32⟩ : BufTy).Contents (Elt Ideal)) (L : (⟨S65536x32, .f32⟩ : BufTy).Contents (Elt Ideal)) :
    val_main_v35 (F := Ideal) U L
      = Cert.Knn.tail bcast_S_S4096 reducesTo_S4096_S_d0 h_S_ (val_main_v5 (F := Ideal) U) (val_main_v23 (F := Ideal) U L) := by
  unfold val_main_v35 val_main_v34 val_main_v33 val_main_v32 val_main_v31 val_main_v30 val_main_v29 val_main_v28
    val_main_v27 val_main_v26 val_main_v25 val_main_v24 val_main_cst_7 val_main_cst_8 val_main_cst_9 val_main_cst_10
  generalize val_main_v5 (F := Ideal) U = d
  generalize val_main_v23 (F := Ideal) U L = v
  unfold Cert.Knn.tail
  rfl

end Cert.Knn.RefSide

end
-- ==== Proof.Algebra.lean ====
/-
  The two arrangements of the nearest-row distance agree when every entry of the two tables is real.

  With real entries the squared lengths and both cross terms are real numbers, the word 0xC0000000 is the real -2 and
  the word 0x40000000 the real 2, so for each row j of L
      usq r + (lsq j + Σ_k (U(r,k)·(-2))·L(j,k)) = (usq r + lsq j) - 2·Σ_k U(r,k)·L(j,k)
  as real numbers. The map x ↦ √(max(usq r + x, 0)) is monotone on the extended reals (adding a fixed number, taking the
  larger of two numbers and the root are all monotone) and sends ⊤ to ⊤ (a real plus ⊤ is ⊤, and √⊤ = ⊤), so it commutes
  with the finite infimum over j. Applying it inside the infimum and rewriting each term by the identity above gives the
  second arrangement.
-/
import proofs.«181582_j53833120088165_2_alg».proof.Proof.Spec
import proofs.«181582_j53833120088165_2_alg».proof.Proof.LibMinFold

noncomputable section

namespace Cert.Knn

open Idealize.ShloMosaic Idealize.ShloMosaic.ValueIdx

/-- The word `0xC0000000` denotes the real `-2`. -/
theorem ofBits_negTwo : Ideal.ofBits .f32 0xC0000000#32 = ((-2 : ℝ) : EReal) := by
  simp [Ideal.ofBits, Ideal.ieee, -EReal.coe_mul]; norm_num

/-- The word `0x40000000` denotes the real `2`. -/
theorem ofBits_two : Ideal.ofBits .f32 0x40000000#32 = ((2 : ℝ) : EReal) := by
  simp [Ideal.ofBits, Ideal.ieee, -EReal.coe_mul]; norm_num

/-- The inclusion of the reals in the extended reals commutes with finite sums. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The root is monotone on the extended reals: below zero it is `⊥`, from zero on it is the real root, and `√⊤ = ⊤`. -/
theorem sqrt_mono : Monotone Ideal.sqrt := by
  intro x y hxy
  induction x using EReal.rec with
  | bot => simp
  | top =>
    have hy : y = ⊤ := top_le_iff.mp hxy
    subst hy; exact le_rfl
  | coe r =>
    induction y using EReal.rec with
    | bot => exact absurd hxy (by simp)
    | top => simp
    | coe s =>
      have hrs : r ≤ s := EReal.coe_le_coe_iff.mp hxy
      simp only [Ideal.sqrt_coe]
      by_cases hr : r < 0
      · simp [hr]
      · have hs : ¬ s < 0 := by
          intro h; exact hr (lt_of_le_of_lt hrs h)
        rw [if_neg hr, if_neg hs]
        exact EReal.coe_le_coe_iff.mpr (Real.sqrt_le_sqrt hrs)

/-- The two arrangements of the distance to the nearest row agree on tables of real numbers. -/
theorem divK_eq_divR (U : SU.Idx → EReal) (L : SL.Idx → EReal)
    (hU : ∀ i, ∃ x : ℝ, U i = (x : EReal)) (hL : ∀ i, ∃ x : ℝ, L i = (x : EReal)) (r : Fin 4096) :
    divK U L r = divR U L r := by
  choose u hu using hU
  choose l hl using hL
  -- the squared lengths and the cross terms are real
  have husq : usq U r = ((∑ k : Fin 32, u (ix2 r k) * u (ix2 r k) : ℝ) : EReal) := by
    unfold usq
    rw [← coe_sum]
    refine Finset.sum_congr rfl fun k _ => ?_
    rw [hu, EReal.coe_mul]
  have hlsq : ∀ j, lsq L j = ((∑ k : Fin 32, l (ix2 j k) * l (ix2 j k) : ℝ) : EReal) := by
    intro j
    unfold lsq
    rw [← coe_sum]
    refine Finset.sum_congr rfl fun k _ => ?_
    rw [hl, EReal.coe_mul]
  have hK : ∀ j, crossK U L r j
      = ((∑ k : Fin 32, (u (ix2 r k) * (-2)) * l (ix2 j k) : ℝ) : EReal) := by
    intro j
    unfold crossK
    rw [← coe_sum]
    refine Finset.sum_congr rfl fun k _ => ?_
    rw [hu, hl, ofBits_negTwo, EReal.coe_mul, EReal.coe_mul]
  have hR : ∀ j, crossR U L r j = ((∑ k : Fin 32, u (ix2 r k) * l (ix2 j k) : ℝ) : EReal) := by
    intro j
    unfold crossR
    rw [← coe_sum]
    refine Finset.sum_congr rfl fun k _ => ?_
    rw [hu, hl, EReal.coe_mul]
  -- the map applied after the infimum is monotone and fixes ⊤
  have hmono : Monotone fun x : EReal => Ideal.sqrt (max (usq U r + x) 0) := fun x y h =>
    sqrt_mono (max_le_max (add_le_add le_rfl h) le_rfl)
  have htop : (fun x : EReal => Ideal.sqrt (max (usq U r + x) 0)) ⊤ = ⊤ := by
    show Ideal.sqrt (max (usq U r + ⊤) 0) = ⊤
    rw [husq, EReal.coe_add_top, max_eq_left le_top, Ideal.sqrt_top]
  unfold divK divR
  refine (Cert.MinFold.map_inf _ hmono htop Finset.univ fun j => lsq L j + crossK U L r j).trans ?_
  refine Finset.inf_congr rfl fun j _ => ?_
  show Ideal.sqrt (max (usq U r + (lsq L j + crossK U L r j)) 0)
    = Ideal.sqrt (max ((usq U r + lsq L j) - Ideal.ofBits .f32 0x40000000#32 * crossR U L r j) 0)
  -- each term: the identity of real numbers
  have hsum : (∑ k : Fin 32, (u (ix2 r k) * (-2)) * l (ix2 j k))
      = -2 * ∑ k : Fin 32, u (ix2 r k) * l (ix2 j k) := by
    rw [Finset.mul_sum]
    exact Finset.sum_congr rfl fun k _ => by ring
  have hreal : usq U r + (lsq L j + crossK U L r j)
      = (usq U r + lsq L j) - Ideal.ofBits .f32 0x40000000#32 * crossR U L r j := by
    rw [husq, hlsq, hK, hR, ofBits_two, hsum, ← EReal.coe_mul, ← EReal.coe_add, ← EReal.coe_add,
      ← EReal.coe_add, ← EReal.coe_sub]
    exact congrArg _ (by ring)
  rw [hreal]

end Cert.Knn

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.Finite.lean ====
/-
  The precondition makes the two tables real.

  The precondition is the conjunction of three statements all(|x| < +∞), one per argument, joined by "and" on one-bit
  words. A conjunction of one-bit words is 1 exactly when both are, so the statements for the second and the third
  argument each hold alone; and an argument of which all(|x| < +∞) holds has only real entries.
-/
import proofs.«181582_j53833120088165_2_alg».proof.Defs
import proofs.«181582_j53833120088165_2_alg».proof.Proof.Gen.Pre_finite_inputs
import proofs.«181582_j53833120088165_2_alg».proof.Proof.LibFiniteInputs

noncomputable section

namespace Cert.Knn

open Idealize.ShloMosaic Idealize.SL.Sem

/-- Under the precondition every entry of the table of query rows and of the table of reference rows is a real number. -/
theorem real_args [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) := by
  have h0 := congrFun (h c) ValueIdx.ix0
  dsimp only [Cert.Pre_finite_inputs.fn] at h0
  obtain ⟨h8, h12⟩ := IntOp.andi_eq_one.1 h0
  obtain ⟨_, h7⟩ := IntOp.andi_eq_one.1 h8
  exact ⟨Cert.LibFiniteInputs.real_of_all_finite _ _ _ _ h7,
    Cert.LibFiniteInputs.real_of_all_finite _ _ _ _ h12⟩

end Cert.Knn

end
-- ==== Proof.lean ====
/-
  The kernel computes, for each of 4096 query rows u, the standard-normal log-density −½‖u‖² − c and the distance to the
  nearest of 65536 reference rows, and @main turns the two vectors into exp(dens + log(div + ε)), shifted by its minimum
  and divided by its shifted maximum. The reference forms every squared distance ‖u‖² + ‖l‖² − 2 u·l, clamps it at 0,
  takes the root and then the minimum over the reference rows; the kernel scales u by −2 before the products, takes the
  minimum of ‖l‖² − 2 u·l over the reference rows sixteen blocks of 4096 at a time, and adds ‖u‖², clamps and takes the
  root once per query row.

  On the extended reals the two agree when every input is a real number, which the precondition says: then every
  squared distance is a real and the two groupings of its three terms are equal; x ↦ √(max(‖u‖² + x, 0)) is monotone
  and fixes +∞, so it commutes with the minimum over the reference rows; and a running minimum over sixteen consecutive
  blocks from +∞ is the minimum over all rows. The log-density is the same expression on both sides, and the last
  steps are one function applied to the same two vectors.

  The three frames are the generated ones (the reference's is its generated run with the result dropped); the ideal pass
  rewrote nothing, so the kernel's idealization has nothing to state.
-/
import proofs.«181582_j53833120088165_2_alg».proof.Defs
import proofs.«181582_j53833120088165_2_alg».proof.Proof.Gen.Kernel
import proofs.«181582_j53833120088165_2_alg».proof.Proof.Gen.Kernel.Frame
import proofs.«181582_j53833120088165_2_alg».proof.Proof.Gen.KernelIdeal
import proofs.«181582_j53833120088165_2_alg».proof.Proof.Gen.KernelIdeal.Frame
import proofs.«181582_j53833120088165_2_alg».proof.Proof.Gen.ReferenceIdeal
import proofs.«181582_j53833120088165_2_alg».proof.Proof.Gen.ReferenceIdeal.Run
import proofs.«181582_j53833120088165_2_alg».proof.Proof.Gen.ReferenceIdeal.Read
import proofs.«181582_j53833120088165_2_alg».proof.Proof.Gen.Pre_finite_inputs
import proofs.«181582_j53833120088165_2_alg».proof.Proof.KernelValue
import proofs.«181582_j53833120088165_2_alg».proof.Proof.RefSide
import proofs.«181582_j53833120088165_2_alg».proof.Proof.RefTail
import proofs.«181582_j53833120088165_2_alg».proof.Proof.Algebra
import proofs.«181582_j53833120088165_2_alg».proof.Proof.Finite
import Idealize.ShloMosaic.Adequacy
import Idealize.ShloMosaic.Init

noncomputable section

namespace Cert.Proof

open Idealize.ShloMosaic Idealize.ShloMosaic.ValueIdx Idealize.SL.Sem

/-- On real tables the reference's result stage is the kernel program's result vector: the same last steps of the same
    log-density vector and of the nearest-distance vector, whose two arrangements agree on real entries. -/
theorem ref_result (U : (⟨Cert.ReferenceIdeal.S4096x32, .f32⟩ : BufTy).Contents (Elt Ideal))
    (L : (⟨Cert.ReferenceIdeal.S65536x32, .f32⟩ : BufTy).Contents (Elt Ideal))
    (hU : ∀ i, ∃ x : ℝ, U i = (x : EReal)) (hL : ∀ i, ∃ x : ℝ, L i = (x : EReal)) :
    Cert.ReferenceIdeal.Read.val_main_v35 (F := Ideal) U L = Cert.KernelIdeal.Blocks.result U L := by
  rw [Cert.Knn.RefSide.ref_tail]
  unfold Cert.KernelIdeal.Blocks.result
  have e1 : Cert.ReferenceIdeal.Read.val_main_v5 (F := Ideal) U = fun i => Cert.Knn.dens U (i 0) := by
    funext i
    obtain ⟨r, rfl⟩ : ∃ r : Fin 4096, i = ix1 r := ⟨i 0, eq_ix1 i⟩
    exact Cert.Knn.RefSide.ref_dens U r
  have e2 : Cert.ReferenceIdeal.Read.val_main_v23 (F := Ideal) U L = fun i => Cert.Knn.divK U L (i 0) := by
    funext i
    obtain ⟨r, rfl⟩ : ∃ r : Fin 4096, i = ix1 r := ⟨i 0, eq_ix1 i⟩
    exact (Cert.Knn.RefSide.ref_div U L r).trans (Cert.Knn.divK_eq_divR U L hU hL r).symm
  rw [e1, e2]

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, which the precondition makes real, both idealized programs end with the
    same result vector. -/
theorem algebraic : Cert.algebraic_KernelIdeal_ReferenceIdeal := by
  intro m ρ m' ρ' hpre hagree
  refine ⟨fun c => Cert.KernelIdeal.Blocks.result (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).2.1, (hagree c).2.2]
  exact ref_result _ _ (Cert.Knn.real_args m hpre c).1 (Cert.Knn.real_args m hpre c).2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
